-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S625000x64 : Shape := ⟨2, ![625000, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000x64 : S_.BroadcastsInDim S625000x64 (![] : Fin 0 → Fin S625000x64.rank)
  reducesTo_S625000x64_S_d0_1 : S625000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x625000 32) (main_arg2 : FVec F S625000x64 .f32) (main_arg3 : FVec F S64x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000x64 .f32 := Host.absf main_arg2
  let main_cst_0 : FVec F S_ .f32 := constant S_ .f32 0x7F800000#32
  let main_v5 : FVec F S625000x64 .f32 := broadcastInDim S625000x64 ![] bcast_S_S625000x64 main_cst_0
  let main_v6 : IVec S625000x64 1 := cmpf .olt main_v4 main_v5
  let main_c_1 : IVec S_ 1 := constantI S_ 1 1#1
  let main_v7 : IVec S_ 1 := (fun x v => Host.reduce IntOp.andi x v reducesTo_S625000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x625000 : Shape := ⟨2, ![2, 625000]⟩
abbrev S625000x64 : Shape := ⟨2, ![625000, 64]⟩
abbrev S64x128 : Shape := ⟨2, ![64, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S1x128 : Shape := ⟨2, ![1, 128]⟩
abbrev S625000x128 : Shape := ⟨2, ![625000, 128]⟩
abbrev S5000x64 : Shape := ⟨2, ![5000, 64]⟩
abbrev S5000x128 : Shape := ⟨2, ![5000, 128]⟩
abbrev S_ : Shape := ⟨0, ![]⟩
abbrev S625000x1 : Shape := ⟨2, ![625000, 1]⟩

abbrev nBuf : Space → Nat
  | .hbm => 32
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S1x128, .f32⟩
  | .hbm, ⟨12, _⟩ => ⟨S1x128, .f32⟩
  | .hbm, ⟨13, _⟩ => ⟨S625000x128, .f32⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .f32⟩
  | .hbm, ⟨23, _⟩ => ⟨S625000x128, .f32⟩
  | .hbm, ⟨24, _⟩ => ⟨S_, .f32⟩
  | .hbm, ⟨25, _⟩ => ⟨S625000x128, .f32⟩
  | .hbm, ⟨26, _⟩ => ⟨S625000x128, .f32⟩
  | .hbm, ⟨27, _⟩ => ⟨S_, .f32⟩
  | .hbm, ⟨28, _⟩ => ⟨S100000x128, .f32⟩
  | .hbm, ⟨29, _⟩ => ⟨S625000x1, .i32⟩
  | .hbm, ⟨30, _⟩ => ⟨S100000x128, .f32⟩
  | .hbm, ⟨31, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S625000 : S_.BroadcastsInDim S625000 (![] : Fin 0 → Fin S625000.rank)
  bcast_S625000_S625000x1_0 : S625000.BroadcastsInDim S625000x1 (![0] : Fin 1 → Fin S625000x1.rank)
  bcast_S_S625000x128 : S_.BroadcastsInDim S625000x128 (![] : Fin 0 → Fin S625000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x64_S64x128_S5000x128_1_0_0_1_n_n_wf : DotDims.WF S5000x64 S64x128 S5000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S625000x64.size a
  hwx0_0 : ∀ i : grid0.Coords, EltTy.bits .f32 = 32 ∨ (Rect.block (s := S625000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S625000x128.size a
  hwx0_3 : ∀ i : grid0.Coords, EltTy.bits .f32 = 32 ∨ (Rect.block (s := S625000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S625000x64 : Shape := ⟨2, ![625000, 64]⟩
abbrev S64x128 : Shape := ⟨2, ![64, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S625000x128 : Shape := ⟨2, ![625000, 128]⟩
abbrev S1x128 : Shape := ⟨2, ![1, 128]⟩
abbrev S_ : Shape := ⟨0, ![]⟩
abbrev S625000x1 : Shape := ⟨2, ![625000, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S625000x128, .f32⟩
  | .hbm, ⟨12, _⟩ => ⟨S1x128, .f32⟩
  | .hbm, ⟨13, _⟩ => ⟨S625000x128, .f32⟩
  | .hbm, ⟨14, _⟩ => ⟨S625000x128, .f32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S625000x128, .f32⟩
  | .hbm, ⟨25, _⟩ => ⟨S_, .f32⟩
  | .hbm, ⟨26, _⟩ => ⟨S625000x128, .f32⟩
  | .hbm, ⟨27, _⟩ => ⟨S625000x128, .f32⟩
  | .hbm, ⟨28, _⟩ => ⟨S_, .f32⟩
  | .hbm, ⟨29, _⟩ => ⟨S100000x128, .f32⟩
  | .hbm, ⟨30, _⟩ => ⟨S625000x1, .i32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_call2_cst : Ref sig .tc := ⟨.hbm, 43, rfl⟩
abbrev main_call2_v0 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000 : S_.BroadcastsInDim S625000 (![] : Fin 0 → Fin S625000.rank)
  bcast_S625000_S625000x1_0 : S625000.BroadcastsInDim S625000x1 (![0] : Fin 1 → Fin S625000x1.rank)
  bcast_S_S625000x128 : S_.BroadcastsInDim S625000x128 (![] : Fin 0 → Fin S625000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S625000x64_S64x128_S625000x128_1_0_0_1_n_n_wf : DotDims.WF S625000x64 S64x128 S625000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def dot_S625000x64_S64x128_S625000x128_1_0_0_1_n_n : DotDims S625000x64 S64x128 S625000x128 where
  lhsContracting := [1]
  rhsContracting := [0]
  lhsNonContracting := [0]
  rhsNonContracting := [1]
  lhsBatch := []
  rhsBatch := []
  wf := dot_S625000x64_S64x128_S625000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its RESULT named.

  @main of the kernel is six segments: the slices and reshapes of the arguments, the edge-projection region, the
  index normalisation with the gather and the sum, the relu, the scatter-add, and the node region. The buffer
  contents at each boundary are a fold from the launch memory, and the last boundary's contents are those every final
  state holds. Here the result array is read off that last boundary beside the arguments: after the run the result
  holds what the fold gives the node region's output window, and the arguments are as launched.
-/
import proofs.«149548_j53257594471011_2_alg».proof.Proof.Gen.KernelIdeal.Frame

set_option maxRecDepth 16384

noncomputable section

namespace Cert.KernelIdeal.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Last

end
-- ==== Proof.BlockValues.lean ====
/-
  What each kernel body stores, entry by entry, on the extended reals.

  The edge body takes a block of 5000 edge-attribute rows, the 64×128 edge weight and the bias as one row, and stores
  the product plus the bias row laid along every row: entry (p, q) is the sum over the 64 inner coordinates of
  attribute (p, k) times weight (k, q), plus bias entry q. The rounding of the factors to a narrower format is the
  identity here, and the product starts from a zero accumulator, which adds nothing.

  The node body takes a block of 5000 node rows, the matching block of aggregated messages, the 128×128 weight and the
  bias row, and stores the larger of zero and the product of their sum with the weight, plus the bias: entry (p, q) is
  max (Σ_k (x (p, k) + agg (p, k)) · W (k, q) + b q, 0).
-/
import proofs.«149548_j53257594471011_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx
open scoped BigOperators

theorem edge_product_lhs_row (i : S5000x128.Idx) (k : dot_S5000x64_S64x128_S5000x128_1_0_0_1_n_n.contr.Idx) : (dot_S5000x64_S64x128_S5000x128_1_0_0_1_n_n.lhsIdx i k 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem edge_product_rhs_col (i : S5000x128.Idx) (k : dot_S5000x64_S64x128_S5000x128_1_0_0_1_n_n.contr.Idx) : (dot_S5000x64_S64x128_S5000x128_1_0_0_1_n_n.rhsIdx i k 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- Entry (p, q) of a 5000×64 by 64×128 product started from zero: the sum over the 64 inner coordinates. -/
theorem edge_product_apply (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact edge_product_lhs_row _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact edge_product_rhs_col _ _)
  rw [el, er]

theorem node_product_lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem node_product_rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of a 5000×128 by 128×128 product started from zero: the sum over the 128 inner coordinates. -/
theorem node_product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact node_product_lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact node_product_rhs_col _ _)
  rw [el, er]

/-- A one-row matrix laid along each of 5000 rows (after a cast to its own shape, which changes nothing), read at
    (p, q), is the row's entry q. -/
theorem bias_row_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_apply b broadcasts_S1x128_S5000x128 (ix2 p q) (ix2 (0 : Fin 1) q) (fun a => by
    match a with
    | ⟨0, _⟩ => rfl
    | ⟨1, _⟩ => show q.val = if (128 : Nat) = 1 then 0 else q.val; rw [if_neg (by decide)])

/-- The edge body's stored value at (p, q). -/
theorem edge_payload_apply (a : FVec Ideal S5000x64 .f32) (w : FVec Ideal S64x128 .f32) (b : FVec Ideal S1x128 .f32)
    (p : Fin 5000) (q : Fin 128) :
    k0_pay1 (F := Ideal) a w b (ix2 p q) = (∑ k : Fin 64, a (ix2 p k) * w (ix2 k q)) + b (ix2 (0 : Fin 1) q) := by
  unfold k0_pay1
  refine congrArg₂ (· + ·) ((edge_product_apply _ _ p q).trans ?_) (bias_row_apply b p q)
  rfl

/-- The node body's stored value at (p, q). -/
theorem node_payload_apply (x g : FVec Ideal S5000x128 .f32) (w : FVec Ideal S128x128 .f32) (b : FVec Ideal S1x128 .f32)
    (p : Fin 5000) (q : Fin 128) :
    k1_pay1 (F := Ideal) x g w b (ix2 p q)
      = max ((∑ k : Fin 128, (x (ix2 p k) + g (ix2 p k)) * w (ix2 k q)) + b (ix2 (0 : Fin 1) q)) 0 := by
  unfold k1_pay1
  refine congrArg₂ max (congrArg₂ (· + ·) ((node_product_apply _ _ p q).trans ?_) (bias_row_apply b p q)) ?_
  · rw [shapeCast_self]; rfl
  · exact Ideal.ofBits_zero_f32

end Cert.KernelIdeal.Blocks

end
-- ==== Proof.EdgeArray.lean ====
/-
  The edge region's output array as one function of the arrays the region finds.

  The region has 125 grid points; point t reads rows 5000·t … 5000·t + 4999 of the edge attributes, the whole
  64×128 weight and the whole one-row bias, and writes back the same rows of the output. So row r of the output is
  written by point r / 5000 from row r of the attributes, and the output array ends holding, at (r, q),
  Σ_k attr (r, k) · weight (k, q) + bias (0, q) — every row is covered, since the blocks tile the array.
-/
import proofs.«149548_j53257594471011_2_alg».proof.Proof.Gen.KernelIdeal.Frame
import proofs.«149548_j53257594471011_2_alg».proof.Proof.BlockValues

set_option maxRecDepth 16384

noncomputable section

namespace Cert.KernelIdeal.EdgeArray

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The edge projection of whole arrays: attributes [625000, 64], weight [64, 128], bias as one row [1, 128]. -/
def edgeOut (A : S625000x64.Idx → EReal) (W : S64x128.Idx → EReal) (B : S1x128.Idx → EReal) : S625000x128.Idx → EReal :=
  fun i => (∑ k : Fin 64, A (ix2 (⟨(i 0).val, (i 0).isLt⟩ : Fin 625000) k) * W (ix2 k (⟨(i 1).val, (i 1).isLt⟩ : Fin 128)))
    + B (ix2 (0 : Fin 1) (⟨(i 1).val, (i 1).isLt⟩ : Fin 128))

/-- One entry of a block's stored value is the matching entry of the whole-array projection, when the block's
    attribute row is the array's row and the weight and the bias are the arrays'. -/
theorem entry (a : FVec Ideal S5000x64 .f32) (w : FVec Ideal S64x128 .f32) (b : FVec Ideal S1x128 .f32)
    (A : S625000x64.Idx → EReal) (W : S64x128.Idx → EReal) (B : S1x128.Idx → EReal)
    (j : S5000x128.Idx) (i : S625000x128.Idx) (hq : (i 1).val = (j 1).val)
    (ha : ∀ k : Fin 64, a (ix2 (⟨(j 0).val, (j 0).isLt⟩ : Fin 5000) k) = A (ix2 (⟨(i 0).val, (i 0).isLt⟩ : Fin 625000) k))
    (hw : ∀ y, w y = W y) (hb : ∀ y, b y = B y) :
    k0_pay1 (F := Ideal) a w b j = edgeOut A W B i := by
  obtain ⟨p, q, rfl⟩ : ∃ (p : Fin 5000) (q : Fin 128), j = ix2 p q := ⟨j 0, j 1, eq_ix2 j⟩
  have hq' : (⟨(i 1).val, (i 1).isLt⟩ : Fin 128) = q := Fin.ext hq
  rw [Blocks.edge_payload_apply]
  unfold edgeOut
  rw [hq', hb]
  refine congrArg (· + B (ix2 (0 : Fin 1) q)) (Finset.sum_congr rfl fun k _ => ?_)
  rw [← ha k, hw]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 125 points: the attribute and output windows sit at block row t, column block 0;
    the weight and the bias windows at block (0, 0). -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is block t of the whole-array projection of the arrays the region finds. -/
theorem flushed_eq (c : Dev nD) (t : Fin cfg0.N) :
    (dat0 V c).flushed 3 t
      = ((cfg0.win 3).blk t).view.read (Elt Ideal) (edgeOut (V c main_arg2) (V c main_arg3) (V c main_v4)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  obtain ⟨e30, e31, e00, e01, e10, e11, e20, e21⟩ := idx_facts t
  funext j
  refine entry (iblk0 V c 0 t) (iblk0 V c 1 t) (iblk0 V c 2 t) (V c main_arg2) (V c main_arg3) (V c main_v4) j
    (((cfg0.win 3).blk t).view.emb j) ?_ ?_ ?_ ?_
  · show win0_3.index t (1 : Fin 2) * 128 + 1 * (j 1).val = (j 1).val
    omega
  · intro k
    show V c main_arg2 (((cfg0.win 0).blk t).view.emb (ix2 (⟨(j 0).val, (j 0).isLt⟩ : Fin 5000) k)) = V c main_arg2 _
    refine congrArg (V c main_arg2) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · intro y
    show V c main_arg3 (((cfg0.win 1).blk t).view.emb y) = V c main_arg3 y
    refine congrArg (V c main_arg3) (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · intro y
    show V c main_v4 (((cfg0.win 2).blk t).view.emb y) = V c main_v4 y
    refine congrArg (V c main_v4) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the output array is in point t's block iff each coordinate is in the block's range on its axis. -/
theorem mem_blk (t : Fin cfg0.N) (i : S625000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- Every block row of the output is some point's. -/
theorem idx_onto : ∀ q0 : Fin 125, ∃ t : Fin cfg0.N, t.val = q0.val :=
  (by decide +kernel : ∀ q0 : Fin 125, ∃ t : Fin grid0.N, t.val = q0.val)

/-- Every row of the output lies in the block of the point numbered row / 5000. -/
theorem cover (i : S625000x128.Idx) :
    ∃ t : Fin cfg0.N, (cfg0.win 3).flush t = true ∧ i ∈ ((cfg0.win 3).blk t).view.set := by
  have hi0 : (i 0).val < 625000 := (i 0).isLt
  have hi1 : (i 1).val < 128 := (i 1).isLt
  obtain ⟨t, ht⟩ := idx_onto ⟨(i 0).val / 5000, by omega⟩
  have ht' : t.val = (i 0).val / 5000 := ht
  obtain ⟨e30, e31, -⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the whole-array projection of the arrays the region finds. -/
theorem final (c : Dev nD) :
    (dat0 V c).arrAt 3 cfg0.N = edgeOut (V c main_arg2) (V c main_arg3) (V c main_v4) :=
  (dat0 V c).arrAt_eq_of_cover 3 (edgeOut (V c main_arg2) (V c main_arg3) (V c main_v4))
    (fun t _ => flushed_eq V c t) cover

end Cert.KernelIdeal.EdgeArray

end
-- ==== Proof.NodeArray.lean ====
/-
  The node region's output array as one function of the arrays the region finds.

  The region has 20 grid points; point t reads rows 5000·t … 5000·t + 4999 of the node features and of the aggregated
  messages, the whole 128×128 weight and the whole one-row bias, and writes back the same rows of the output. So row r
  of the output is written by point r / 5000 from row r of both inputs, and the output array ends holding, at (r, q),
  max (Σ_k (x (r, k) + agg (r, k)) · weight (k, q) + bias (0, q), 0) — every row is covered, since the blocks tile
  the array.
-/
import proofs.«149548_j53257594471011_2_alg».proof.Proof.Gen.KernelIdeal.Frame
import proofs.«149548_j53257594471011_2_alg».proof.Proof.BlockValues

set_option maxRecDepth 16384

noncomputable section

namespace Cert.KernelIdeal.NodeArray

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The node update of whole arrays: features and aggregated messages [100000, 128], weight [128, 128], bias as one
    row [1, 128]. -/
def nodeOut (X G : S100000x128.Idx → EReal) (W : S128x128.Idx → EReal) (B : S1x128.Idx → EReal) : S100000x128.Idx → EReal :=
  fun i => max ((∑ k : Fin 128, (X (ix2 (⟨(i 0).val, (i 0).isLt⟩ : Fin 100000) k) + G (ix2 (⟨(i 0).val, (i 0).isLt⟩ : Fin 100000) k))
      * W (ix2 k (⟨(i 1).val, (i 1).isLt⟩ : Fin 128)))
    + B (ix2 (0 : Fin 1) (⟨(i 1).val, (i 1).isLt⟩ : Fin 128))) 0

/-- One entry of a block's stored value is the matching entry of the whole-array update, when the block's rows of
    features and messages are the arrays' rows and the weight and the bias are the arrays'. -/
theorem entry (x g : FVec Ideal S5000x128 .f32) (w : FVec Ideal S128x128 .f32) (b : FVec Ideal S1x128 .f32)
    (X G : S100000x128.Idx → EReal) (W : S128x128.Idx → EReal) (B : S1x128.Idx → EReal)
    (j : S5000x128.Idx) (i : S100000x128.Idx) (hq : (i 1).val = (j 1).val)
    (hx : ∀ k : Fin 128, x (ix2 (⟨(j 0).val, (j 0).isLt⟩ : Fin 5000) k) = X (ix2 (⟨(i 0).val, (i 0).isLt⟩ : Fin 100000) k))
    (hg : ∀ k : Fin 128, g (ix2 (⟨(j 0).val, (j 0).isLt⟩ : Fin 5000) k) = G (ix2 (⟨(i 0).val, (i 0).isLt⟩ : Fin 100000) k))
    (hw : ∀ y, w y = W y) (hb : ∀ y, b y = B y) :
    k1_pay1 (F := Ideal) x g w b j = nodeOut X G W B i := by
  obtain ⟨p, q, rfl⟩ : ∃ (p : Fin 5000) (q : Fin 128), j = ix2 p q := ⟨j 0, j 1, eq_ix2 j⟩
  have hq' : (⟨(i 1).val, (i 1).isLt⟩ : Fin 128) = q := Fin.ext hq
  rw [Blocks.node_payload_apply]
  unfold nodeOut
  rw [hq', hb]
  refine congrArg (fun s => max (s + B (ix2 (0 : Fin 1) q)) 0) (Finset.sum_congr rfl fun k _ => ?_)
  rw [← hx k, ← hg k, hw]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the feature, message and output windows sit at block row t, column
    block 0; the weight and the bias windows at block (0, 0). -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point t writes back is block t of the whole-array update of the arrays the region finds. -/
theorem flushed_eq (c : Dev nD) (t : Fin cfg1.N) :
    (dat1 V c).flushed 4 t
      = ((cfg1.win 4).blk t).view.read (Elt Ideal) (nodeOut (V c main_arg0) (V c main_v18) (V c main_arg5) (V c main_v5)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨e40, e41, e00, e01, e10, e11, e20, e21, e30, e31⟩ := idx_facts t
  funext j
  refine entry (iblk1 V c 0 t) (iblk1 V c 1 t) (iblk1 V c 2 t) (iblk1 V c 3 t) (V c main_arg0) (V c main_v18) (V c main_arg5)
    (V c main_v5) j (((cfg1.win 4).blk t).view.emb j) ?_ ?_ ?_ ?_ ?_
  · show win1_4.index t (1 : Fin 2) * 128 + 1 * (j 1).val = (j 1).val
    omega
  · intro k
    show V c main_arg0 (((cfg1.win 0).blk t).view.emb (ix2 (⟨(j 0).val, (j 0).isLt⟩ : Fin 5000) k)) = V c main_arg0 _
    refine congrArg (V c main_arg0) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · intro k
    show V c main_v18 (((cfg1.win 1).blk t).view.emb (ix2 (⟨(j 0).val, (j 0).isLt⟩ : Fin 5000) k)) = V c main_v18 _
    refine congrArg (V c main_v18) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · intro y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    show V c main_v5 (((cfg1.win 3).blk t).view.emb y) = V c main_v5 y
    refine congrArg (V c main_v5) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v19).slice (win1_4.rect t)).set ↔ _
  rw [View.set_slice_whole, Rect.mem_set_unit]
  exact Iff.rfl

/-- Every block row of the output is some point's. -/
theorem idx_onto : ∀ q0 : Fin 20, ∃ t : Fin cfg1.N, t.val = q0.val :=
  (by decide +kernel : ∀ q0 : Fin 20, ∃ t : Fin grid1.N, t.val = q0.val)

/-- Every row of the output lies in the block of the point numbered row / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e40, e41, -⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the whole-array update of the arrays the region finds. -/
theorem final (c : Dev nD) :
    (dat1 V c).arrAt 4 cfg1.N = nodeOut (V c main_arg0) (V c main_v18) (V c main_arg5) (V c main_v5) :=
  (dat1 V c).arrAt_eq_of_cover 4 (nodeOut (V c main_arg0) (V c main_v18) (V c main_arg5) (V c main_v5))
    (fun t _ => flushed_eq V c t) cover

end Cert.KernelIdeal.NodeArray

end
-- ==== Proof.Boundaries.lean ====
/-
  The kernel's buffers between its two regions, read back to the launch arrays.

  Before the edge region the host slices the two rows of the edge index into a source vector and a destination
  vector and casts each bias vector to one row. Between the regions it normalises the source indices (a negative
  index counts from the end), gathers the source nodes' feature rows, adds the projected edge attributes, takes the
  larger of that and zero, and adds each message row into its destination node's row of a zero array. All of that is
  ONE function `messages` of the node features, the edge index and the projected attributes; it is never opened here.
  The node region then reads the node features, that aggregate, its weight and its bias row.
-/
import proofs.«149548_j53257594471011_2_alg».proof.Proof.Gen.KernelIdeal.Frame
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo

variable {F : FTy → Type} [FloatOps F]

/-- A bias vector as one row. -/
def biasRow (b : (⟨S128, .f32⟩ : BufTy).Contents (Elt F)) : (⟨S1x128, .f32⟩ : BufTy).Contents (Elt F) :=
  shapeCast _ b shapeCasts_S128_S1x128

/-- Row `r` of the edge index as a vector. -/
def sources (ei : (⟨S2x625000, .i32⟩ : BufTy).Contents (Elt F)) : (⟨S625000, .i32⟩ : BufTy).Contents (Elt F) :=
  shapeCast _ (extractStridedSlice S1x625000 ![0, 0] ei slices_S2x625000_S1x625000_0_0) shapeCasts_S1x625000_S625000
def targets (ei : (⟨S2x625000, .i32⟩ : BufTy).Contents (Elt F)) : (⟨S625000, .i32⟩ : BufTy).Contents (Elt F) :=
  shapeCast _ (extractStridedSlice S1x625000 ![1, 0] ei slices_S2x625000_S1x625000_1_0) shapeCasts_S1x625000_S625000

/-- The gathered source rows plus the projected attributes. -/
def presum (x : (⟨S100000x128, .f32⟩ : BufTy).Contents (Elt F)) (src : (⟨S625000, .i32⟩ : BufTy).Contents (Elt F))
    (e : (⟨S625000x128, .f32⟩ : BufTy).Contents (Elt F)) : (⟨S625000x128, .f32⟩ : BufTy).Contents (Elt F) :=
  addf (Host.gather gather_S100000x128_S625000x1_S625000x128_1_0_n_n_0_1_1128 x
    (broadcastInDim S625000x1 ![0] bcast_S625000_S625000x1_0
      (select (cmpi .slt src (broadcastInDim S625000 ![] bcast_S_S625000 (constantI S_ 32 0#32)))
        (addi src (broadcastInDim S625000 ![] bcast_S_S625000 (constantI S_ 32 100000#32))) src))) e

/-- The larger of a message and zero. -/
def positive (v : (⟨S625000x128, .f32⟩ : BufTy).Contents (Elt F)) : (⟨S625000x128, .f32⟩ : BufTy).Contents (Elt F) :=
  maximumf v (broadcastInDim S625000x128 ![] bcast_S_S625000x128 (constant (F := F) S_ .f32 0x00000000#32))

/-- Each message row added into its destination node's row of a zero array. -/
def summed (dst : (⟨S625000, .i32⟩ : BufTy).Contents (Elt F)) (v : (⟨S625000x128, .f32⟩ : BufTy).Contents (Elt F)) :
    (⟨S100000x128, .f32⟩ : BufTy).Contents (Elt F) :=
  Host.scatterAdd (F := F) scatter_S100000x128_S625000x1_S625000x128_1_0_0_1
    (broadcastInDim S100000x128 ![] bcast_S_S100000x128 (constant (F := F) S_ .f32 0x00000000#32))
    (broadcastInDim S625000x1 ![0] bcast_S625000_S625000x1_0 dst) v

/-- The aggregated messages as one function of the node features, the edge index and the projected attributes. -/
def messages (x : (⟨S100000x128, .f32⟩ : BufTy).Contents (Elt F)) (ei : (⟨S2x625000, .i32⟩ : BufTy).Contents (Elt F))
    (e : (⟨S625000x128, .f32⟩ : BufTy).Contents (Elt F)) : (⟨S100000x128, .f32⟩ : BufTy).Contents (Elt F) :=
  summed (targets ei) (positive (presum x (sources ei) e))

variable (m : (ℓ : Loc nD τ sig) → Buf (Elt F) ℓ) (ρ : Dev nD → PrngReg) (c : Dev nD)

/-! ## Region 0's entry -/

theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_v4 : W1 m ρ c (Proc.devRef .tc main_v4) = biasRow (m ((c : Thread nD τ).loc main_arg4)) := by
  show StableHlo.after hostOps0 (W0 m ρ c) (Proc.devRef .tc main_v4) = _
  after_results <;> rfl
theorem W1_v5 : W1 m ρ c (Proc.devRef .tc main_v5) = biasRow (m ((c : Thread nD τ).loc main_arg6)) := by
  show StableHlo.after hostOps0 (W0 m ρ c) (Proc.devRef .tc main_v5) = _
  after_results <;> rfl
theorem W1_v1 : W1 m ρ c (Proc.devRef .tc main_v1) = sources (m ((c : Thread nD τ).loc main_arg1)) := by
  show StableHlo.after hostOps0 (W0 m ρ c) (Proc.devRef .tc main_v1) = _
  after_results <;> rfl
theorem W1_v3 : W1 m ρ c (Proc.devRef .tc main_v3) = targets (m ((c : Thread nD τ).loc main_arg1)) := by
  show StableHlo.after hostOps0 (W0 m ρ c) (Proc.devRef .tc main_v3) = _
  after_results <;> rfl

/-! ## Region 0's exit: only its output array has changed -/

theorem W2_v6 : W2 m ρ c (Proc.devRef .tc main_v6) = (dat0 (V1 m ρ) c).arrAt 3 cfg0.N := W2_arr m ρ c 3
theorem W2_arg0 : W2 m ρ c (Proc.devRef .tc main_arg0) = m ((c : Thread nD τ).loc main_arg0) :=
  (W2_of_ne m ρ c main_arg0 (by decide)).trans (W1_arg0 m ρ c)
theorem W2_arg5 : W2 m ρ c (Proc.devRef .tc main_arg5) = m ((c : Thread nD τ).loc main_arg5) :=
  (W2_of_ne m ρ c main_arg5 (by decide)).trans (W1_arg5 m ρ c)
theorem W2_v1 : W2 m ρ c (Proc.devRef .tc main_v1) = sources (m ((c : Thread nD τ).loc main_arg1)) :=
  (W2_of_ne m ρ c main_v1 (by decide)).trans (W1_v1 m ρ c)
theorem W2_v3 : W2 m ρ c (Proc.devRef .tc main_v3) = targets (m ((c : Thread nD τ).loc main_arg1)) :=
  (W2_of_ne m ρ c main_v3 (by decide)).trans (W1_v3 m ρ c)
theorem W2_v5 : W2 m ρ c (Proc.devRef .tc main_v5) = biasRow (m ((c : Thread nD τ).loc main_arg6)) :=
  (W2_of_ne m ρ c main_v5 (by decide)).trans (W1_v5 m ρ c)

/-! ## The three host stretches between the regions -/

theorem W3_v14 : W3 m ρ c (Proc.devRef .tc main_v14)
    = presum (W2 m ρ c (Proc.devRef .tc main_arg0)) (W2 m ρ c (Proc.devRef .tc main_v1)) (W2 m ρ c (Proc.devRef .tc main_v6)) := by
  show StableHlo.after hostOps1 (W2 m ρ c) (Proc.devRef .tc main_v14) = _
  after_results <;> rfl
theorem W3_keep (b : Ref sig .tc) (hb : b ∉ [main_c, main_v7, main_v8, main_c_0, main_v9, main_v10, main_v11, main_v12, main_v13, main_v14]) :
    W3 m ρ c (Proc.devRef .tc b) = W2 m ρ c (Proc.devRef .tc b) :=
  StableHlo.after_of_writes_sub hostOps1 (W2 m ρ c) (by
    simp only [hostOps1, List.Forall, StableHlo.nullary_writes, StableHlo.unary_writes, StableHlo.binary_writes,
      StableHlo.ternary_writes, List.map_cons, List.map_nil, List.toFinset_cons, List.toFinset_nil]
    repeat' apply And.intro
    all_goals (intro z hz; rw [Finset.mem_singleton] at hz; subst hz; simp)) hb

theorem W4_v15 : W4 m ρ c (Proc.devRef .tc main_v15) = positive (W3 m ρ c (Proc.devRef .tc main_v14)) := by
  show StableHlo.after hostOps1_1 (W3 m ρ c) (Proc.devRef .tc main_v15) = _
  after_results <;> rfl
theorem W4_keep (b : Ref sig .tc) (hb : b ∉ [main_call0_cst, main_call0_v0, main_v15]) :
    W4 m ρ c (Proc.devRef .tc b) = W3 m ρ c (Proc.devRef .tc b) :=
  StableHlo.after_of_writes_sub hostOps1_1 (W3 m ρ c) (by
    simp only [hostOps1_1, List.Forall, StableHlo.nullary_writes, StableHlo.unary_writes, StableHlo.binary_writes,
      StableHlo.ternary_writes, List.map_cons, List.map_nil, List.toFinset_cons, List.toFinset_nil]
    repeat' apply And.intro
    all_goals (intro z hz; rw [Finset.mem_singleton] at hz; subst hz; simp)) hb

theorem W5_v18 : W5 m ρ c (Proc.devRef .tc main_v18)
    = summed (W4 m ρ c (Proc.devRef .tc main_v3)) (W4 m ρ c (Proc.devRef .tc main_v15)) := by
  show StableHlo.after hostOps1_2 (W4 m ρ c) (Proc.devRef .tc main_v18) = _
  after_results <;> rfl
theorem W5_keep (b : Ref sig .tc) (hb : b ∉ [main_cst, main_v16, main_v17, main_v18]) :
    W5 m ρ c (Proc.devRef .tc b) = W4 m ρ c (Proc.devRef .tc b) :=
  StableHlo.after_of_writes_sub hostOps1_2 (W4 m ρ c) (by
    simp only [hostOps1_2, List.Forall, StableHlo.nullary_writes, StableHlo.unary_writes, StableHlo.binary_writes,
      StableHlo.ternary_writes, List.map_cons, List.map_nil, List.toFinset_cons, List.toFinset_nil]
    repeat' apply And.intro
    all_goals (intro z hz; rw [Finset.mem_singleton] at hz; subst hz; simp)) hb

/-- A buffer none of the three stretches writes is at region 1's entry what it was at region 0's exit. -/
theorem W5_eq_W2 (b : Ref sig .tc)
    (h1 : b ∉ [main_c, main_v7, main_v8, main_c_0, main_v9, main_v10, main_v11, main_v12, main_v13, main_v14])
    (h2 : b ∉ [main_call0_cst, main_call0_v0, main_v15]) (h3 : b ∉ [main_cst, main_v16, main_v17, main_v18]) :
    W5 m ρ c (Proc.devRef .tc b) = W2 m ρ c (Proc.devRef .tc b) :=
  (W5_keep m ρ c b h3).trans ((W4_keep m ρ c b h2).trans (W3_keep m ρ c b h1))

/-! ## Region 1's entry -/

theorem V5_arg0 : V5 m ρ c main_arg0 = m ((c : Thread nD τ).loc main_arg0) :=
  (W5_eq_W2 m ρ c main_arg0 (by decide) (by decide) (by decide)).trans (W2_arg0 m ρ c)
theorem V5_arg5 : V5 m ρ c main_arg5 = m ((c : Thread nD τ).loc main_arg5) :=
  (W5_eq_W2 m ρ c main_arg5 (by decide) (by decide) (by decide)).trans (W2_arg5 m ρ c)
theorem V5_v5 : V5 m ρ c main_v5 = biasRow (m ((c : Thread nD τ).loc main_arg6)) :=
  (W5_eq_W2 m ρ c main_v5 (by decide) (by decide) (by decide)).trans (W2_v5 m ρ c)
theorem V5_v18 : V5 m ρ c main_v18
    = messages (m ((c : Thread nD τ).loc main_arg0)) (m ((c : Thread nD τ).loc main_arg1)) ((dat0 (V1 m ρ) c).arrAt 3 cfg0.N) := by
  show W5 m ρ c (Proc.devRef .tc main_v18) = _
  rw [W5_v18, W4_v15, W3_v14, W2_arg0, W2_v1, W2_v6,
    W4_keep m ρ c main_v3 (by decide), W3_keep m ρ c main_v3 (by decide), W2_v3]
  rfl

end Cert.KernelIdeal.Boundaries

end
-- ==== Proof.KernelValue.lean ====
/-
  The idealized kernel's result as one function of its argument arrays.

  The result is the node region's output array: the node update of the node features, the aggregated messages, the
  node weight and the node bias as one row. The aggregated messages are the shared message function of the node
  features, the edge index and the edge region's output array, and that array is the edge projection of the edge
  attributes, the edge weight and the edge bias as one row.
-/
import proofs.«149548_j53257594471011_2_alg».proof.Proof.KernelRun
import proofs.«149548_j53257594471011_2_alg».proof.Proof.EdgeArray
import proofs.«149548_j53257594471011_2_alg».proof.Proof.NodeArray
import proofs.«149548_j53257594471011_2_alg».proof.Proof.Boundaries

set_option maxRecDepth 16384

noncomputable section

namespace Cert.KernelIdeal.Result

open Cert.KernelIdeal Cert.KernelIdeal.Gen Idealize.ShloMosaic Idealize.ShloMosaic.TcCoe Idealize.SL.Sem

/-- The whole computation on the argument arrays: node features, edge index, edge attributes, edge weight, edge
    bias, node weight, node bias. -/
def value (x : (⟨S100000x128, .f32⟩ : BufTy).Contents (Elt Ideal)) (ei : (⟨S2x625000, .i32⟩ : BufTy).Contents (Elt Ideal))
    (ea : (⟨S625000x64, .f32⟩ : BufTy).Contents (Elt Ideal)) (We : (⟨S64x128, .f32⟩ : BufTy).Contents (Elt Ideal))
    (be : (⟨S128, .f32⟩ : BufTy).Contents (Elt Ideal)) (Wm : (⟨S128x128, .f32⟩ : BufTy).Contents (Elt Ideal))
    (bm : (⟨S128, .f32⟩ : BufTy).Contents (Elt Ideal)) : (⟨S100000x128, .f32⟩ : BufTy).Contents (Elt Ideal) :=
  NodeArray.nodeOut x (Boundaries.messages x ei (EdgeArray.edgeOut ea We (Boundaries.biasRow be))) Wm (Boundaries.biasRow bm)

variable (m : (ℓ : Loc nD τ sig) → Buf (Elt Ideal) ℓ) (ρ : Dev nD → PrngReg)

/-- The edge region's output array, from the launch arrays. -/
theorem edge_array (c : Dev nD) : (dat0 (V1 m ρ) c).arrAt 3 cfg0.N
    = EdgeArray.edgeOut (m ((c : Thread nD τ).loc main_arg2)) (m ((c : Thread nD τ).loc main_arg3))
        (Boundaries.biasRow (m ((c : Thread nD τ).loc main_arg4))) := by
  rw [EdgeArray.final (V1 m ρ) c,
    show V1 m ρ c main_arg2 = m ((c : Thread nD τ).loc main_arg2) from Boundaries.W1_arg2 m ρ c,
    show V1 m ρ c main_arg3 = m ((c : Thread nD τ).loc main_arg3) from Boundaries.W1_arg3 m ρ c,
    show V1 m ρ c main_v4 = Boundaries.biasRow (m ((c : Thread nD τ).loc main_arg4)) from Boundaries.W1_v4 m ρ c]

/-- The last boundary's contents at the result array are the whole computation on the launch arrays. -/
theorem last_eq (c : Dev nD) : W6 m ρ c (Proc.devRef .tc main_v19)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [show W6 m ρ c (Proc.devRef .tc main_v19) = (dat1 (V5 m ρ) c).arrAt 4 cfg1.N from W6_arr m ρ c 4,
    NodeArray.final (V5 m ρ) c, Boundaries.V5_arg0, Boundaries.V5_v18, Boundaries.V5_arg5, Boundaries.V5_v5, edge_array]
  rfl

/-- Every weakly fair execution of the kernel's @main terminates, nothing faulting, with the result array at the whole
    computation on the launch arrays and every argument array as launched. -/
theorem run : θ_run defs (onTc (τ := τ) (main (F := Ideal))) ⟨m, fun _ => 0, ρ⟩ (fun r => ∀ c : Dev nD,
      r.2.mem ((c.tc : Thread nD τ).loc main_v19)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_eq m ρ c), (h c).2⟩) (Last.run m ρ)

end Cert.KernelIdeal.Result

end
-- ==== Proof.Bridge.lean ====
/-
  The reference computes the same function of the argument arrays as the kernel.

  Stage by stage. The reference's edge projection is a matrix product plus the bias vector laid along every row: at
  (r, q) the sum over the 64 inner coordinates of attribute (r, k) times weight (k, q), plus bias q — the kernel's
  edge projection, whose bias row is the same vector cast to one row. The index normalisation, the gather, the sum with
  the projection, the first relu and the scatter-add are the same operations on both sides: the shared message
  function, never opened. The reference's tail multiplies the node features by the constant one, which changes no
  extended real, adds the aggregate, multiplies by the node weight, adds the bias and takes the larger of the result
  and zero twice, which is taking it once: the kernel's node update.
-/
import proofs.«149548_j53257594471011_2_alg».proof.Proof.Gen.ReferenceIdeal.Read
import proofs.«149548_j53257594471011_2_alg».proof.Proof.KernelValue
import Idealize.ShloMosaic.Lib.IdealHost

noncomputable section

namespace Cert.Bridge

open Cert.ReferenceIdeal Cert.ReferenceIdeal.Read Idealize.ShloMosaic Idealize.ShloMosaic.ValueIdx
open scoped BigOperators

/-- A vector cast to one row, read at (0, q), is the vector's entry q. -/
theorem biasRow_apply (b : (⟨S128, .f32⟩ : BufTy).Contents (Elt Ideal)) (q : Fin 128) :
    Cert.KernelIdeal.Boundaries.biasRow (F := Ideal) b (ix2 (0 : Fin 1) q) = b (ix1 q) := by
  unfold Cert.KernelIdeal.Boundaries.biasRow
  exact shapeCast_apply b _ (ix2 (0 : Fin 1) q) (ix1 q) (by
    rw [Shape.rowMajor_val_two, Shape.rowMajor_val_one]; show q.val = 0 * 128 + q.val; omega)

/-- The reference's projected edge attributes are the kernel's edge projection. -/
theorem edge_stage (x2 : (⟨S625000x64, .f32⟩ : BufTy).Contents (Elt Ideal)) (x3 : (⟨S64x128, .f32⟩ : BufTy).Contents (Elt Ideal))
    (x4 : (⟨S128, .f32⟩ : BufTy).Contents (Elt Ideal)) :
    val_main_v7 (F := Ideal) x2 x3 x4
      = Cert.KernelIdeal.EdgeArray.edgeOut x2 x3 (Cert.KernelIdeal.Boundaries.biasRow (F := Ideal) x4) := by
  funext i
  rw [val_main_v7_apply, val_main_v4_apply, val_main_v6_apply, val_main_v5_apply]
  unfold Cert.KernelIdeal.EdgeArray.edgeOut
  rw [biasRow_apply]
  have hl : ∀ k : Fin 64, lidx_main_v4 i k = ix2 (⟨(i 0).val, (i 0).isLt⟩ : Fin 625000) k :=
    fun k => funext fun a => Fin.ext (by match a with | ⟨0, _⟩ => rfl | ⟨1, _⟩ => rfl)
  have hr : ∀ k : Fin 64, ridx_main_v4 i k = ix2 k (⟨(i 1).val, (i 1).isLt⟩ : Fin 128) :=
    fun k => funext fun a => Fin.ext (by match a with | ⟨0, _⟩ => rfl | ⟨1, _⟩ => rfl)
  have hb : idx_main_v5 (idx_main_v6 i) = ix1 (⟨(i 1).val, (i 1).isLt⟩ : Fin 128) :=
    funext fun a => Fin.ext (by match a with | ⟨0, _⟩ => rfl)
  simp only [hl, hr, hb, Ideal.addf_def]

/-- The reference's aggregate is the shared message function of its projected edge attributes. -/
theorem messages_stage (x0 : (⟨S100000x128, .f32⟩ : BufTy).Contents (Elt Ideal)) (x1 : (⟨S2x625000, .i32⟩ : BufTy).Contents (Elt Ideal))
    (x2 : (⟨S625000x64, .f32⟩ : BufTy).Contents (Elt Ideal)) (x3 : (⟨S64x128, .f32⟩ : BufTy).Contents (Elt Ideal))
    (x4 : (⟨S128, .f32⟩ : BufTy).Contents (Elt Ideal)) :
    val_main_v19 (F := Ideal) x0 x1 x2 x3 x4
      = Cert.KernelIdeal.Boundaries.messages (F := Ideal) x0 x1 (val_main_v7 (F := Ideal) x2 x3 x4) := rfl

/-- The reference's tail is the kernel's node update of the node features and the reference's aggregate. -/
theorem node_stage (x0 : (⟨S100000x128, .f32⟩ : BufTy).Contents (Elt Ideal)) (x1 : (⟨S2x625000, .i32⟩ : BufTy).Contents (Elt Ideal))
    (x2 : (⟨S625000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v28 (F := Ideal) x0 x1 x2 x3 x4 x5 x6
      = Cert.KernelIdeal.NodeArray.nodeOut x0 (val_main_v19 (F := Ideal) x0 x1 x2 x3 x4) x5
          (Cert.KernelIdeal.Boundaries.biasRow (F := Ideal) x6) := by
  funext i
  rw [val_main_v28_apply, val_main_v27_apply, val_main_v26_apply, val_main_v23_apply, val_main_v25_apply, val_main_v24_apply,
    val_main_call2_v0_apply, val_main_call2_cst_apply, val_main_call1_v0_apply, val_main_call1_cst_apply]
  unfold Cert.KernelIdeal.NodeArray.nodeOut
  rw [biasRow_apply]
  have hl : ∀ k : Fin 128, lidx_main_v23 i k = ix2 (⟨(i 0).val, (i 0).isLt⟩ : Fin 100000) k :=
    fun k => funext fun a => Fin.ext (by match a with | ⟨0, _⟩ => rfl | ⟨1, _⟩ => rfl)
  have hr : ∀ k : Fin 128, ridx_main_v23 i k = ix2 k (⟨(i 1).val, (i 1).isLt⟩ : Fin 128) :=
    fun k => funext fun a => Fin.ext (by match a with | ⟨0, _⟩ => rfl | ⟨1, _⟩ => rfl)
  have hb : idx_main_v24 (idx_main_v25 i) = ix1 (⟨(i 1).val, (i 1).isLt⟩ : Fin 128) :=
    funext fun a => Fin.ext (by match a with | ⟨0, _⟩ => rfl)
  simp only [val_main_v22_apply, val_main_v21_apply, val_main_v20_apply, val_main_cst_1_apply, hl, hr, hb,
    Ideal.addf_def, Ideal.mulf_def, Ideal.maximumf_def, Ideal.ofBits_def, Ideal.ofBits_one_f32, Ideal.ofBits_zero_f32,
    one_mul, max_assoc, max_self]

/-- The reference's result term is the kernel's whole computation on the same argument arrays. -/
theorem reference_eq (x0 : (⟨S100000x128, .f32⟩ : BufTy).Contents (Elt Ideal)) (x1 : (⟨S2x625000, .i32⟩ : BufTy).Contents (Elt Ideal))
    (x2 : (⟨S625000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v28 (F := Ideal) x0 x1 x2 x3 x4 x5 x6 = Cert.KernelIdeal.Result.value x0 x1 x2 x3 x4 x5 x6 := by
  rw [node_stage, messages_stage, edge_stage]
  rfl

end Cert.Bridge

end
-- ==== Proof.lean ====
/-
  The proof of `Cert.Claim`: the kernel against its reference, on the extended reals.

  Both programs compute one graph-convolution layer. Every edge carries an attribute row, which a linear map sends
  to the node dimension; each edge's message is the larger of zero and its source node's features plus that
  projection; a node sums the messages of the edges that end in it, adds its own features, and applies a second
  linear map followed by the larger-of-zero. The kernel does the two linear maps in two blocked regions, 5000 rows
  at a time, with the gather and the scatter-add on the host between them; the reference does everything on the
  host, multiplies the node features by one before adding the aggregate, and takes the larger-of-zero twice at the
  end. On the extended reals the matrix products are the same sums, one times anything is that thing, and taking the
  larger of zero twice is taking it once; the shared gather, first relu and scatter-add are never opened. No step
  needs the inputs to be finite, so the precondition is not used.

  The three frames are the generated frame runs (the reference's is its generated run with the result dropped); the
  idealization rewrote nothing, so that conjunct is trivial.
-/
import proofs.«149548_j53257594471011_2_alg».proof.Defs
import proofs.«149548_j53257594471011_2_alg».proof.Proof.Gen.Kernel
import proofs.«149548_j53257594471011_2_alg».proof.Proof.Gen.Kernel.Skeleton
import proofs.«149548_j53257594471011_2_alg».proof.Proof.Gen.Kernel.Launch
import proofs.«149548_j53257594471011_2_alg».proof.Proof.Gen.Kernel.Points
import proofs.«149548_j53257594471011_2_alg».proof.Proof.Gen.Kernel.Frame
import proofs.«149548_j53257594471011_2_alg».proof.Proof.Gen.KernelIdeal
import proofs.«149548_j53257594471011_2_alg».proof.Proof.Gen.KernelIdeal.Skeleton
import proofs.«149548_j53257594471011_2_alg».proof.Proof.Gen.KernelIdeal.Launch
import proofs.«149548_j53257594471011_2_alg».proof.Proof.Gen.KernelIdeal.Points
import proofs.«149548_j53257594471011_2_alg».proof.Proof.Gen.KernelIdeal.Frame
import proofs.«149548_j53257594471011_2_alg».proof.Proof.Gen.ReferenceIdeal
import proofs.«149548_j53257594471011_2_alg».proof.Proof.Gen.ReferenceIdeal.Run
import proofs.«149548_j53257594471011_2_alg».proof.Proof.Gen.ReferenceIdeal.Read
import proofs.«149548_j53257594471011_2_alg».proof.Proof.Gen.Pre_finite_inputs
import proofs.«149548_j53257594471011_2_alg».proof.Proof.KernelValue
import proofs.«149548_j53257594471011_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's result array ends at the whole computation on the argument
    arrays, and the reference's at its composed term of the same arrays, which is that computation. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Bridge.reference_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
